-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x1 : Shape := ⟨2, ![524288, 1]⟩
abbrev S1x524288x2 : Shape := ⟨3, ![1, 524288, 2]⟩
abbrev S8x1 : Shape := ⟨2, ![8, 1]⟩
abbrev S8x2 : Shape := ⟨2, ![8, 2]⟩
abbrev S8 : Shape := ⟨1, ![8]⟩
abbrev S128x2 : Shape := ⟨2, ![128, 2]⟩
abbrev S128 : Shape := ⟨1, ![128]⟩
abbrev S5x128 : Shape := ⟨2, ![5, 128]⟩
abbrev S5 : Shape := ⟨1, ![5]⟩
abbrev S_ : Shape := ⟨0, ![]⟩

class Facts : Prop where
  bcast_S_S524288x1 : S_.BroadcastsInDim S524288x1 (![] : Fin 0 → Fin S524288x1.rank)
  reducesTo_S524288x1_S_d0_1 : S524288x1.ReducesTo [0, 1] S_
  h_S_ : 0 < S_.numel
  bcast_S_S1x524288x2 : S_.BroadcastsInDim S1x524288x2 (![] : Fin 0 → Fin S1x524288x2.rank)
  reducesTo_S1x524288x2_S_d0_1_2 : S1x524288x2.ReducesTo [0, 1, 2] S_
  bcast_S_S8x1 : S_.BroadcastsInDim S8x1 (![] : Fin 0 → Fin S8x1.rank)
  reducesTo_S8x1_S_d0_1 : S8x1.ReducesTo [0, 1] S_
  bcast_S_S8x2 : S_.BroadcastsInDim S8x2 (![] : Fin 0 → Fin S8x2.rank)
  reducesTo_S8x2_S_d0_1 : S8x2.ReducesTo [0, 1] S_
  bcast_S_S8 : S_.BroadcastsInDim S8 (![] : Fin 0 → Fin S8.rank)
  reducesTo_S8_S_d0 : S8.ReducesTo [0] S_
  bcast_S_S128x2 : S_.BroadcastsInDim S128x2 (![] : Fin 0 → Fin S128x2.rank)
  reducesTo_S128x2_S_d0_1 : S128x2.ReducesTo [0, 1] S_
  bcast_S_S128 : S_.BroadcastsInDim S128 (![] : Fin 0 → Fin S128.rank)
  reducesTo_S128_S_d0 : S128.ReducesTo [0] S_
  bcast_S_S5x128 : S_.BroadcastsInDim S5x128 (![] : Fin 0 → Fin S5x128.rank)
  reducesTo_S5x128_S_d0_1 : S5x128.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  main_v53

def fn_part2 {F : FTy → Type} [FloatOps F] (main_arg7 : FVec F S128x2 .f32) (main_arg8 : FVec F S128 .f32) (main_arg9 : FVec F S5x128 .f32) (main_arg10 : FVec F S5 .f32) (main_v33 : IVec S_ 1) : IVec S_ 1 :=
  let main_v34 : FVec F S128x2 .f32 := Host.absf main_arg7
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S5x128 .f32 := Host.absf main_arg9
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  let main_v49 : FVec F S5 .f32 := Host.absf main_arg10
  let main_cst_18 : FVec F S_ .f32 := constant S_ .f32 0x7F800000#32
  let main_v50 : FVec F S5 .f32 := broadcastInDim S5 ![] bcast_S_S5 main_cst_18
  fn_part3 (F := F) main_v48 main_v49 main_v50

def fn_part1 {F : FTy → Type} [FloatOps F] (main_arg4 : FVec F S8x2 .f32) (main_arg5 : FVec F S8 .f32) (main_arg6 : FVec F S8 .f32) (main_arg7 : FVec F S128x2 .f32) (main_arg8 : FVec F S128 .f32) (main_arg9 : FVec F S5x128 .f32) (main_arg10 : FVec F S5 .f32) (main_v13 : IVec S_ 1) (main_v16 : IVec S8x1 1) : IVec S_ 1 :=
  let main_c_5 : IVec S_ 1 := constantI S_ 1 1#1
  let main_v17 : IVec S_ 1 := (fun x v => Host.reduce IntOp.andi x v reducesTo_S8x1_S_d0_1 h_S_) main_v16 main_c_5
  let main_v18 : IVec S_ 1 := andi main_v13 main_v17
  let main_v19 : FVec F S8x2 .f32 := Host.absf main_arg4
  let main_cst_6 : FVec F S_ .f32 := constant S_ .f32 0x7F800000#32
  let main_v20 : FVec F S8x2 .f32 := broadcastInDim S8x2 ![] bcast_S_S8x2 main_cst_6
  let main_v21 : IVec S8x2 1 := cmpf .olt main_v19 main_v20
  let main_c_7 : IVec S_ 1 := constantI S_ 1 1#1
  let main_v22 : IVec S_ 1 := (fun x v => Host.reduce IntOp.andi x v reducesTo_S8x2_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S524288x1 .f32) (main_arg1 : FVec F S1x524288x2 .f32) (main_arg2 : FVec F S1x524288x2 .f32) (main_arg3 : FVec F S8x1 .f32) (main_arg4 : FVec F S8x2 .f32) (main_arg5 : FVec F S8 .f32) (main_arg6 : FVec F S8 .f32) (main_arg7 : FVec F S128x2 .f32) (main_arg8 : FVec F S128 .f32) (main_arg9 : FVec F S5x128 .f32) (main_arg10 : FVec F S5 .f32) : IVec S_ 1 :=
  let main_v0 : FVec F S524288x1 .f32 := Host.absf main_arg0
  let main_cst : FVec F S_ .f32 := constant S_ .f32 0x7F800000#32
  let main_v1 : FVec F S524288x1 .f32 := broadcastInDim S524288x1 ![] bcast_S_S524288x1 main_cst
  let main_v2 : IVec S524288x1 1 := cmpf .olt main_v0 main_v1
  let main_c : IVec S_ 1 := constantI S_ 1 1#1
  let main_v3 : IVec S_ 1 := (fun x v => Host.reduce IntOp.andi x v reducesTo_S524288x1_S_d0_1 h_S_) main_v2 main_c
  let main_v4 : FVec F S1x524288x2 .f32 := Host.absf main_arg1
  let main_cst_0 : FVec F S_ .f32 := constant S_ .f32 0x7F800000#32
  let main_v5 : FVec F S1x524288x2 .f32 := broadcastInDim S1x524288x2 ![] bcast_S_S1x524288x2 main_cst_0
  let main_v6 : IVec S1x524288x2 1 := cmpf .olt main_v4 main_v5
  let main_c_1 : IVec S_ 1 := constantI S_ 1 1#1
  let main_v7 : IVec S_ 1 := (fun x v => Host.reduce IntOp.andi x v reducesTo_S1x524288x2_S_d0_1_2 h_S_) main_v6 main_c_1
  let main_v8 : IVec S_ 1 := andi main_v3 main_v7
  let main_v9 : FVec F S1x524288x2 .f32 := Host.absf main_arg2
  let main_cst_2 : FVec F S_ .f32 := constant S_ .f32 0x7F800000#32
  let main_v10 : FVec F S1x524288x2 .f32 := broadcastInDim S1x524288x2 ![] bcast_S_S1x524288x2 main_cst_2
  let main_v11 : IVec S1x524288x2 1 := cmpf .olt main_v9 main_v10
  let main_c_3 : IVec S_ 1 := constantI S_ 1 1#1
  let main_v12 : IVec S_ 1 := (fun x v => Host.reduce IntOp.andi x v reducesTo_S1x524288x2_S_d0_1_2 h_S_) main_v11 main_c_3
  let main_v13 : IVec S_ 1 := andi main_v8 main_v12
  let main_v14 : FVec F S8x1 .f32 := Host.absf main_arg3
  let main_cst_4 : FVec F S_ .f32 := constant S_ .f32 0x7F800000#32
  let main_v15 : FVec F S8x1 .f32 := broadcastInDim S8x1 ![] bcast_S_S8x1 main_cst_4
  let main_v16 : IVec S8x1 1 := cmpf .olt main_v14 main_v15
  fn_part1 (F := F) main_arg4 main_arg5 main_arg6 main_arg7 main_arg8 main_arg9 main_arg10 main_v13 main_v16
-- ==== Kernel.lean ====
abbrev S524288x1 : Shape := ⟨2, ![524288, 1]⟩
abbrev S1x524288x2 : Shape := ⟨3, ![1, 524288, 2]⟩
abbrev S8x1 : Shape := ⟨2, ![8, 1]⟩
abbrev S8x2 : Shape := ⟨2, ![8, 2]⟩
abbrev S8 : Shape := ⟨1, ![8]⟩
abbrev S128x2 : Shape := ⟨2, ![128, 2]⟩
abbrev S128 : Shape := ⟨1, ![128]⟩
abbrev S5x128 : Shape := ⟨2, ![5, 128]⟩
abbrev S5 : Shape := ⟨1, ![5]⟩
abbrev S1x524288 : Shape := ⟨2, ![1, 524288]⟩
abbrev S524288x2 : Shape := ⟨2, ![524288, 2]⟩
abbrev S2x524288 : Shape := ⟨2, ![2, 524288]⟩
abbrev S128x1 : Shape := ⟨2, ![128, 1]⟩
abbrev S5x1 : Shape := ⟨2, ![5, 1]⟩
abbrev S5x524288 : Shape := ⟨2, ![5, 524288]⟩
abbrev S1x16384 : Shape := ⟨2, ![1, 16384]⟩
abbrev S2x16384 : Shape := ⟨2, ![2, 16384]⟩
abbrev S5x16384 : Shape := ⟨2, ![5, 16384]⟩
abbrev S8x16384 : Shape := ⟨2, ![8, 16384]⟩
abbrev S128x16384 : Shape := ⟨2, ![128, 16384]⟩
abbrev S524288x5 : Shape := ⟨2, ![524288, 5]⟩

abbrev nBuf : Space → Nat
  | .hbm => 22
  | .vmem => 16
  | .smem => 0
  | _ => 0

abbrev bufTy : (tb : Table) → Fin (tcTables nBuf tb) → BufTy
  | .hbm, ⟨0, _⟩ => ⟨S524288x1, .f32⟩
  | .hbm, ⟨1, _⟩ => ⟨S1x524288x2, .f32⟩
  | .hbm, ⟨2, _⟩ => ⟨S1x524288x2, .f32⟩
  | .hbm, ⟨3, _⟩ => ⟨S8x1, .f32⟩
  | .hbm, ⟨4, _⟩ => ⟨S8x2, .f32⟩
  | .hbm, ⟨5, _⟩ => ⟨S8, .f32⟩
  | .hbm, ⟨6, _⟩ => ⟨S8, .f32⟩
  | .hbm, ⟨7, _⟩ => ⟨S128x2, .f32⟩
  | .hbm, ⟨8, _⟩ => ⟨S128, .f32⟩
  | .hbm, ⟨9, _⟩ => ⟨S5x128, .f32⟩
  | .hbm, ⟨10, _⟩ => ⟨S5, .f32⟩
  | .hbm, ⟨11, _⟩ => ⟨S1x524288, .f32⟩
  | .hbm, ⟨12, _⟩ => ⟨S524288x2, .f32⟩
  | .hbm, ⟨13, _⟩ => ⟨S2x524288, .f32⟩
  | .hbm, ⟨14, _⟩ => ⟨S524288x2, .f32⟩
  | .hbm, ⟨15, _⟩ => ⟨S2x524288, .f32⟩
  | .hbm, ⟨16, _⟩ => ⟨S8x1, .f32⟩
  | .hbm, ⟨17, _⟩ => ⟨S8x1, .f32⟩
  | .hbm, ⟨18, _⟩ => ⟨S128x1, .f32⟩
  | .hbm, ⟨19, _⟩ => ⟨S5x1, .f32⟩
  | .hbm, ⟨20, _⟩ => ⟨S5x524288, .f32⟩
  | .hbm, ⟨21, _⟩ => ⟨S524288x5, .f32⟩
  | .local _ .vmem, ⟨0, _⟩ => ⟨S1x16384, .f32⟩
  | .local _ .vmem, ⟨1, _⟩ => ⟨S1x16384, .f32⟩
  | .local _ .vmem, ⟨2, _⟩ => ⟨S2x16384, .f32⟩
  | .local _ .vmem, ⟨3, _⟩ => ⟨S2x16384, .f32⟩
  | .local _ .vmem, ⟨4, _⟩ => ⟨S2x16384, .f32⟩
  | .local _ .vmem, ⟨5, _⟩ => ⟨S2x16384, .f32⟩
  | .local _ .vmem, ⟨6, _⟩ => ⟨S8x1, .f32⟩
  | .local _ .vmem, ⟨7, _⟩ => ⟨S8x2, .f32⟩
  | .local _ .vmem, ⟨8, _⟩ => ⟨S8x1, .f32⟩
  | .local _ .vmem, ⟨9, _⟩ => ⟨S8x1, .f32⟩
  | .local _ .vmem, ⟨10, _⟩ => ⟨S128x2, .f32⟩
  | .local _ .vmem, ⟨11, _⟩ => ⟨S128x1, .f32⟩
  | .local _ .vmem, ⟨12, _⟩ => ⟨S5x128, .f32⟩
  | .local _ .vmem, ⟨13, _⟩ => ⟨S5x1, .f32⟩
  | .local _ .vmem, ⟨14, _⟩ => ⟨S5x16384, .f32⟩
  | .local _ .vmem, ⟨15, _⟩ => ⟨S5x16384, .f32⟩
  | _, _ => ⟨S524288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5x16384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S524288x1_S1x524288_1_0 : S524288x1.Transposes [1, 0] S1x524288
  shapeCasts_S1x524288x2_S524288x2 : S1x524288x2.ShapeCasts S524288x2
  transposes_S524288x2_S2x524288_1_0 : S524288x2.Transposes [1, 0] S2x524288
  shapeCasts_S8_S8x1 : S8.ShapeCasts S8x1
  shapeCasts_S128_S128x1 : S128.ShapeCasts S128x1
  shapeCasts_S5_S5x1 : S5.ShapeCasts S5x1
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  bitsLt_bf16_f32 : FTy.bits .bf16 < FTy.bits .f32
  inb_S2x16384_S2x16384_0_0 : ∀ a, (![0, 0] : Fin 2 → Nat) a + S2x16384.size a ≤ S2x16384.size a
  h_S2x16384 : 0 < S2x16384.numel
  shapeCasts_S2x16384_S2x16384 : S2x16384.ShapeCasts S2x16384
  inb_S8x1_S8x1_0_0 : ∀ a, (![0, 0] : Fin 2 → Nat) a + S8x1.size a ≤ S8x1.size a
  h_S8x1 : 0 < S8x1.numel
  inb_S8x2_S8x2_0_0 : ∀ a, (![0, 0] : Fin 2 → Nat) a + S8x2.size a ≤ S8x2.size a
  h_S8x2 : 0 < S8x2.numel
  shapeCasts_S8x1_S8x1 : S8x1.ShapeCasts S8x1
  broadcasts_S8x1_S8x16384 : S8x1.Broadcasts S8x16384
  slices_S8x16384_o0_0_S2x16384 : S8x16384.Slices ![0, 0] S2x16384
  slices_S8x16384_o2_0_S2x16384 : S8x16384.Slices ![2, 0] S2x16384
  slices_S8x16384_o4_0_S2x16384 : S8x16384.Slices ![4, 0] S2x16384
  slices_S8x16384_o6_0_S2x16384 : S8x16384.Slices ![6, 0] S2x16384
  inb_S128x2_S128x2_0_0 : ∀ a, (![0, 0] : Fin 2 → Nat) a + S128x2.size a ≤ S128x2.size a
  h_S128x2 : 0 < S128x2.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16384 : S128x1.Broadcasts S128x16384
  inb_S5x128_S5x128_0_0 : ∀ a, (![0, 0] : Fin 2 → Nat) a + S5x128.size a ≤ S5x128.size a
  h_S5x128 : 0 < S5x128.numel
  inb_S5x1_S5x1_0_0 : ∀ a, (![0, 0] : Fin 2 → Nat) a + S5x1.size a ≤ S5x1.size a
  h_S5x1 : 0 < S5x1.numel
  shapeCasts_S5x1_S5x1 : S5x1.ShapeCasts S5x1
  broadcasts_S5x1_S5x16384 : S5x1.Broadcasts S5x16384
  inb_S5x16384_S5x16384_0_0 : ∀ a, (![0, 0] : Fin 2 → Nat) a + S5x16384.size a ≤ S5x16384.size a
  h_S5x16384 : 0 < S5x16384.numel
  transposes_S5x524288_S524288x5_1_0 : S5x524288.Transposes [1, 0] S524288x5
  dot_S8x1_S1x16384_S8x16384_1_0_0_1_n_n_wf : DotDims.WF S8x1 S1x16384 S8x16384 [1] [0] [0] [1] [] []
  dot_S8x2_S2x16384_S8x16384_1_0_0_1_n_n_wf : DotDims.WF S8x2 S2x16384 S8x16384 [1] [0] [0] [1] [] []
  dot_S128x2_S2x16384_S128x16384_1_0_0_1_n_n_wf : DotDims.WF S128x2 S2x16384 S128x16384 [1] [0] [0] [1] [] []
  dot_S5x128_S128x16384_S5x16384_1_0_0_1_n_n_wf : DotDims.WF S5x128 S128x16384 S5x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384.size a ≤ S1x524288.size a
  hwx0_0 : ∀ i : grid0.Coords, EltTy.bits .f32 = 32 ∨ (Rect.block (s := S1x524288) S1x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16384.size a ≤ S2x524288.size a
  hwx0_1 : ∀ i : grid0.Coords, EltTy.bits .f32 = 32 ∨ (Rect.block (s := S2x524288) S2x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x16384.size a ≤ S2x524288.size a
  hwx0_2 : ∀ i : grid0.Coords, EltTy.bits .f32 = 32 ∨ (Rect.block (s := S2x524288) S2x16384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .f32 = 32 ∨ (Rect.block (s := S8x1) S8x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x2.size a ≤ S8x2.size a
  hwx0_4 : ∀ i : grid0.Coords, EltTy.bits .f32 = 32 ∨ (Rect.block (s := S8x2) S8x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S8x1.size a
  hwx0_6 : ∀ i : grid0.Coords, EltTy.bits .f32 = 32 ∨ (Rect.block (s := S8x1) S8x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x2.size a ≤ S128x2.size a
  hwx0_7 : ∀ i : grid0.Coords, EltTy.bits .f32 = 32 ∨ (Rect.block (s := S128x2) S128x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5x128.size a ≤ S5x128.size a
  hwx0_9 : ∀ i : grid0.Coords, EltTy.bits .f32 = 32 ∨ (Rect.block (s := S5x128) S5x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S5x1.size a ≤ S5x1.size a
  hwx0_10 : ∀ i : grid0.Coords, EltTy.bits .f32 = 32 ∨ (Rect.block (s := S5x1) S5x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5x16384.size a ≤ S5x524288.size a
  hwx0_11 : ∀ i : grid0.Coords, EltTy.bits .f32 = 32 ∨ (Rect.block (s := S5x524288) S5x16384.size (cc0_transform_11 i) (hinb0_11 i)).WholeWords (EltTy.packing .f32)

variable [Facts₀]

def dot_S8x1_S1x16384_S8x16384_1_0_0_1_n_n : DotDims S8x1 S1x16384 S8x16384 where
  lhsContracting := [1]
  rhsContracting := [0]
  lhsNonContracting := [0]
  rhsNonContracting := [1]
  lhsBatch := []
  rhsBatch := []
  wf := dot_S8x1_S1x16384_S8x16384_1_0_0_1_n_n_wf
def dot_S8x2_S2x16384_S8x16384_1_0_0_1_n_n : DotDims S8x2 S2x16384 S8x16384 where
  lhsContracting := [1]
  rhsContracting := [0]
  lhsNonContracting := [0]
  rhsNonContracting := [1]
  lhsBatch := []
  rhsBatch := []
  wf := dot_S8x2_S2x16384_S8x16384_1_0_0_1_n_n_wf
def dot_S128x2_S2x16384_S128x16384_1_0_0_1_n_n : DotDims S128x2 S2x16384 S128x16384 where
  lhsContracting := [1]
  rhsContracting := [0]
  lhsNonContracting := [0]
  rhsNonContracting := [1]
  lhsBatch := []
  rhsBatch := []
  wf := dot_S128x2_S2x16384_S128x16384_1_0_0_1_n_n_wf
def dot_S5x128_S128x16384_S5x16384_1_0_0_1_n_n : DotDims S5x128 S128x16384 S5x16384 where
  lhsContracting := [1]
  rhsContracting := [0]
  lhsNonContracting := [0]
  rhsNonContracting := [1]
  lhsBatch := []
  rhsBatch := []
  wf := dot_S5x128_S128x16384_S5x16384_1_0_0_1_n_n_wf

abbrev win0_0 : Pipeline.Window sig grid0 :=
  Pipeline.Window.ofSpec (Memref.whole main_v0) S1x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S8x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S5x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S5x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S5x16384.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S524288x1 : Shape := ⟨2, ![524288, 1]⟩
abbrev S1x524288x2 : Shape := ⟨3, ![1, 524288, 2]⟩
abbrev S8x1 : Shape := ⟨2, ![8, 1]⟩
abbrev S8x2 : Shape := ⟨2, ![8, 2]⟩
abbrev S8 : Shape := ⟨1, ![8]⟩
abbrev S128x2 : Shape := ⟨2, ![128, 2]⟩
abbrev S128 : Shape := ⟨1, ![128]⟩
abbrev S5x128 : Shape := ⟨2, ![5, 128]⟩
abbrev S5 : Shape := ⟨1, ![5]⟩
abbrev S524288x2 : Shape := ⟨2, ![524288, 2]⟩
abbrev S1x8 : Shape := ⟨2, ![1, 8]⟩
abbrev S524288x8 : Shape := ⟨2, ![524288, 8]⟩
abbrev S2x8 : Shape := ⟨2, ![2, 8]⟩
abbrev S_ : Shape := ⟨0, ![]⟩
abbrev S2x128 : Shape := ⟨2, ![2, 128]⟩
abbrev S524288x128 : Shape := ⟨2, ![524288, 128]⟩
abbrev S1x128 : Shape := ⟨2, ![1, 128]⟩
abbrev S128x5 : Shape := ⟨2, ![128, 5]⟩
abbrev S524288x5 : Shape := ⟨2, ![524288, 5]⟩
abbrev S1x5 : Shape := ⟨2, ![1, 5]⟩

abbrev nBuf : Space → Nat
  | .hbm => 74
  | .vmem => 0
  | .smem => 0
  | _ => 0

abbrev bufTy : (tb : Table) → Fin (tcTables nBuf tb) → BufTy
  | .hbm, ⟨0, _⟩ => ⟨S524288x1, .f32⟩
  | .hbm, ⟨1, _⟩ => ⟨S1x524288x2, .f32⟩
  | .hbm, ⟨2, _⟩ => ⟨S1x524288x2, .f32⟩
  | .hbm, ⟨3, _⟩ => ⟨S8x1, .f32⟩
  | .hbm, ⟨4, _⟩ => ⟨S8x2, .f32⟩
  | .hbm, ⟨5, _⟩ => ⟨S8, .f32⟩
  | .hbm, ⟨6, _⟩ => ⟨S8, .f32⟩
  | .hbm, ⟨7, _⟩ => ⟨S128x2, .f32⟩
  | .hbm, ⟨8, _⟩ => ⟨S128, .f32⟩
  | .hbm, ⟨9, _⟩ => ⟨S5x128, .f32⟩
  | .hbm, ⟨10, _⟩ => ⟨S5, .f32⟩
  | .hbm, ⟨11, _⟩ => ⟨S524288x2, .f32⟩
  | .hbm, ⟨12, _⟩ => ⟨S524288x2, .f32⟩
  | .hbm, ⟨13, _⟩ => ⟨S1x8, .f32⟩
  | .hbm, ⟨14, _⟩ => ⟨S524288x8, .f32⟩
  | .hbm, ⟨15, _⟩ => ⟨S2x8, .f32⟩
  | .hbm, ⟨16, _⟩ => ⟨S524288x8, .f32⟩
  | .hbm, ⟨17, _⟩ => ⟨S524288x8, .f32⟩
  | .hbm, ⟨18, _⟩ => ⟨S1x8, .f32⟩
  | .hbm, ⟨19, _⟩ => ⟨S524288x8, .f32⟩
  | .hbm, ⟨20, _⟩ => ⟨S524288x8, .f32⟩
  | .hbm, ⟨21, _⟩ => ⟨S1x8, .f32⟩
  | .hbm, ⟨22, _⟩ => ⟨S524288x8, .f32⟩
  | .hbm, ⟨23, _⟩ => ⟨S524288x8, .f32⟩
  | .hbm, ⟨24, _⟩ => ⟨S524288x2, .f32⟩
  | .hbm, ⟨25, _⟩ => ⟨S524288x2, .f32⟩
  | .hbm, ⟨26, _⟩ => ⟨S524288x2, .f32⟩
  | .hbm, ⟨27, _⟩ => ⟨S524288x2, .f32⟩
  | .hbm, ⟨28, _⟩ => ⟨S524288x2, .f32⟩
  | .hbm, ⟨29, _⟩ => ⟨S524288x2, .f32⟩
  | .hbm, ⟨30, _⟩ => ⟨S_, .f32⟩
  | .hbm, ⟨31, _⟩ => ⟨S524288x2, .f32⟩
  | .hbm, ⟨32, _⟩ => ⟨S524288x2, .f32⟩
  | .hbm, ⟨33, _⟩ => ⟨S_, .f32⟩
  | .hbm, ⟨34, _⟩ => ⟨S524288x2, .f32⟩
  | .hbm, ⟨35, _⟩ => ⟨S524288x2, .f32⟩
  | .hbm, ⟨36, _⟩ => ⟨S524288x2, .f32⟩
  | .hbm, ⟨37, _⟩ => ⟨S524288x2, .f32⟩
  | .hbm, ⟨38, _⟩ => ⟨S_, .f32⟩
  | .hbm, ⟨39, _⟩ => ⟨S524288x2, .f32⟩
  | .hbm, ⟨40, _⟩ => ⟨S524288x2, .f32⟩
  | .hbm, ⟨41, _⟩ => ⟨S_, .f32⟩
  | .hbm, ⟨42, _⟩ => ⟨S524288x2, .f32⟩
  | .hbm, ⟨43, _⟩ => ⟨S524288x2, .f32⟩
  | .hbm, ⟨44, _⟩ => ⟨S524288x2, .f32⟩
  | .hbm, ⟨45, _⟩ => ⟨S524288x2, .f32⟩
  | .hbm, ⟨46, _⟩ => ⟨S524288x2, .f32⟩
  | .hbm, ⟨47, _⟩ => ⟨S_, .f32⟩
  | .hbm, ⟨48, _⟩ => ⟨S524288x2, .f32⟩
  | .hbm, ⟨49, _⟩ => ⟨S524288x2, .f32⟩
  | .hbm, ⟨50, _⟩ => ⟨S_, .f32⟩
  | .hbm, ⟨51, _⟩ => ⟨S524288x2, .f32⟩
  | .hbm, ⟨52, _⟩ => ⟨S524288x2, .f32⟩
  | .hbm, ⟨53, _⟩ => ⟨S524288x2, .f32⟩
  | .hbm, ⟨54, _⟩ => ⟨S524288x2, .f32⟩
  | .hbm, ⟨55, _⟩ => ⟨S524288x2, .f32⟩
  | .hbm, ⟨56, _⟩ => ⟨S524288x2, .f32⟩
  | .hbm, ⟨57, _⟩ => ⟨S524288x2, .f32⟩
  | .hbm, ⟨58, _⟩ => ⟨S_, .f32⟩
  | .hbm, ⟨59, _⟩ => ⟨S524288x2, .f32⟩
  | .hbm, ⟨60, _⟩ => ⟨S524288x2, .f32⟩
  | .hbm, ⟨61, _⟩ => ⟨S2x128, .f32⟩
  | .hbm, ⟨62, _⟩ => ⟨S524288x128, .f32⟩
  | .hbm, ⟨63, _⟩ => ⟨S1x128, .f32⟩
  | .hbm, ⟨64, _⟩ => ⟨S524288x128, .f32⟩
  | .hbm, ⟨65, _⟩ => ⟨S524288x128, .f32⟩
  | .hbm, ⟨66, _⟩ => ⟨S_, .f32⟩
  | .hbm, ⟨67, _⟩ => ⟨S524288x128, .f32⟩
  | .hbm, ⟨68, _⟩ => ⟨S524288x128, .f32⟩
  | .hbm, ⟨69, _⟩ => ⟨S128x5, .f32⟩
  | .hbm, ⟨70, _⟩ => ⟨S524288x5, .f32⟩
  | .hbm, ⟨71, _⟩ => ⟨S1x5, .f32⟩
  | .hbm, ⟨72, _⟩ => ⟨S524288x5, .f32⟩
  | .hbm, ⟨73, _⟩ => ⟨S524288x5, .f32⟩
  | _, _ => ⟨S524288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_cst : Ref sig .tc := ⟨.hbm, 58, rfl⟩
abbrev main_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  shapeCasts_S1x524288x2_S524288x2 : S1x524288x2.ShapeCasts S524288x2
  transposes_S8x1_S1x8_1_0 : S8x1.Transposes [1, 0] S1x8
  transposes_S8x2_S2x8_1_0 : S8x2.Transposes [1, 0] S2x8
  bcast_S8_S1x8_1 : S8.BroadcastsInDim S1x8 (![1] : Fin 1 → Fin S1x8.rank)
  bcast_S1x8_S524288x8_0_1 : S1x8.BroadcastsInDim S524288x8 (![0, 1] : Fin 2 → Fin S524288x8.rank)
  slices_S524288x8_S524288x2_0_0 : S524288x8.Slices ![0, 0] S524288x2
  slices_S524288x8_S524288x2_0_2 : S524288x8.Slices ![0, 2] S524288x2
  slices_S524288x8_S524288x2_0_4 : S524288x8.Slices ![0, 4] S524288x2
  slices_S524288x8_S524288x2_0_6 : S524288x8.Slices ![0, 6] S524288x2
  bcast_S_S524288x2 : S_.BroadcastsInDim S524288x2 (![] : Fin 0 → Fin S524288x2.rank)
  transposes_S128x2_S2x128_1_0 : S128x2.Transposes [1, 0] S2x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  transposes_S5x128_S128x5_1_0 : S5x128.Transposes [1, 0] S128x5
  bcast_S5_S1x5_1 : S5.BroadcastsInDim S1x5 (![1] : Fin 1 → Fin S1x5.rank)
  bcast_S1x5_S524288x5_0_1 : S1x5.BroadcastsInDim S524288x5 (![0, 1] : Fin 2 → Fin S524288x5.rank)
  dot_S524288x1_S1x8_S524288x8_1_0_0_1_n_n_wf : DotDims.WF S524288x1 S1x8 S524288x8 [1] [0] [0] [1] [] []
  dot_S524288x2_S2x8_S524288x8_1_0_0_1_n_n_wf : DotDims.WF S524288x2 S2x8 S524288x8 [1] [0] [0] [1] [] []
  dot_S524288x2_S2x128_S524288x128_1_0_0_1_n_n_wf : DotDims.WF S524288x2 S2x128 S524288x128 [1] [0] [0] [1] [] []
  dot_S524288x128_S128x5_S524288x5_1_0_0_1_n_n_wf : DotDims.WF S524288x128 S128x5 S524288x5 [1] [0] [0] [1] [] []

variable [Facts₀]

def dot_S524288x1_S1x8_S524288x8_1_0_0_1_n_n : DotDims S524288x1 S1x8 S524288x8 where
  lhsContracting := [1]
  rhsContracting := [0]
  lhsNonContracting := [0]
  rhsNonContracting := [1]
  lhsBatch := []
  rhsBatch := []
  wf := dot_S524288x1_S1x8_S524288x8_1_0_0_1_n_n_wf
def dot_S524288x2_S2x8_S524288x8_1_0_0_1_n_n : DotDims S524288x2 S2x8 S524288x8 where
  lhsContracting := [1]
  rhsContracting := [0]
  lhsNonContracting := [0]
  rhsNonContracting := [1]
  lhsBatch := []
  rhsBatch := []
  wf := dot_S524288x2_S2x8_S524288x8_1_0_0_1_n_n_wf
def dot_S524288x2_S2x128_S524288x128_1_0_0_1_n_n : DotDims S524288x2 S2x128 S524288x128 where
  lhsContracting := [1]
  rhsContracting := [0]
  lhsNonContracting := [0]
  rhsNonContracting := [1]
  lhsBatch := []
  rhsBatch := []
  wf := dot_S524288x2_S2x128_S524288x128_1_0_0_1_n_n_wf
def dot_S524288x128_S128x5_S524288x5_1_0_0_1_n_n : DotDims S524288x128 S128x5 S524288x5 where
  lhsContracting := [1]
  rhsContracting := [0]
  lhsNonContracting := [0]
  rhsNonContracting := [1]
  lhsBatch := []
  rhsBatch := []
  wf := dot_S524288x128_S128x5_S524288x5_1_0_0_1_n_n_wf

class Facts : Prop extends Facts₀ where

variable [Facts]
-- ==== Proof.RowSpec.lean ====
/-
  One batch row of the network: a single LSTM step followed by a two-layer perceptron.

  For one row, with input `x` (one feature), previous hidden and cell states `h`, `c` (two features each), the eight
  stacked gate pre-activations are
      gate g = ((∑ k, x k · Wih g k) + (∑ k, h k · Whh g k)) + bih g + bhh g,
  rows 0–1 the input gate, 2–3 the forget gate, 4–5 the candidate, 6–7 the output gate. The new cell state is
  `σ(f) · c + σ(i) · tanh(g)`, the new hidden state `σ(o) · tanh(cell)`, and the head is
      relu(hidden) ↦ relu(· W1ᵀ + b1) ↦ · W2ᵀ + b2.
  All arithmetic is on the extended reals; `σ` is `Ideal.logistic`, and the rectifier's zero is kept as the
  float pattern it is printed with. `actionsOf` is this row function applied to every row of the batch.
-/
import Idealize.ShloMosaic.PureOps.Ideal
import Idealize.ShloMosaic.Lib.ValueIdx

noncomputable section

namespace Cert.RowSpec

open Idealize.ShloMosaic Idealize.ShloMosaic.ValueIdx
open scoped BigOperators

/-- Rows of the stacked gates: input gate, forget gate, candidate, output gate of feature `j`. -/
def gIn (j : Fin 2) : Fin 8 := ⟨j.val, by omega⟩
def gForget (j : Fin 2) : Fin 8 := ⟨2 + j.val, by omega⟩
def gCand (j : Fin 2) : Fin 8 := ⟨4 + j.val, by omega⟩
def gOut (j : Fin 2) : Fin 8 := ⟨6 + j.val, by omega⟩

/-- The rectifier, its zero the float pattern of `0.0`. -/
def relu (v : EReal) : EReal := max v (Ideal.ofBits .f32 0x00000000#32)

/-- The eight gate pre-activations of one row. -/
def gate (x : Fin 1 → EReal) (h : Fin 2 → EReal) (wih : Fin 8 → Fin 1 → EReal) (whh : Fin 8 → Fin 2 → EReal)
    (bih bhh : Fin 8 → EReal) (g : Fin 8) : EReal :=
  ((∑ k : Fin 1, x k * wih g k) + (∑ k : Fin 2, h k * whh g k)) + bih g + bhh g

/-- The LSTM step's new hidden state, rectified, from the gates and the previous cell state. -/
def lstmOut (gt : Fin 8 → EReal) (c : Fin 2 → EReal) (j : Fin 2) : EReal :=
  relu (Ideal.logistic (gt (gOut j))
    * Ideal.tanh (Ideal.logistic (gt (gForget j)) * c j + Ideal.logistic (gt (gIn j)) * Ideal.tanh (gt (gCand j))))

/-- The first layer of the head, rectified. -/
def hiddenLayer (o : Fin 2 → EReal) (w1 : Fin 128 → Fin 2 → EReal) (b1 : Fin 128 → EReal) (n : Fin 128) : EReal :=
  relu ((∑ j : Fin 2, o j * w1 n j) + b1 n)

/-- The second layer of the head. -/
def headLayer (hd : Fin 128 → EReal) (w2 : Fin 5 → Fin 128 → EReal) (b2 : Fin 5 → EReal) (q : Fin 5) : EReal :=
  (∑ n : Fin 128, hd n * w2 q n) + b2 q

/-- One row of the network, end to end. -/
def rowActions (x : Fin 1 → EReal) (h c : Fin 2 → EReal) (wih : Fin 8 → Fin 1 → EReal) (whh : Fin 8 → Fin 2 → EReal)
    (bih bhh : Fin 8 → EReal) (w1 : Fin 128 → Fin 2 → EReal) (b1 : Fin 128 → EReal) (w2 : Fin 5 → Fin 128 → EReal)
    (b2 : Fin 5 → EReal) (q : Fin 5) : EReal :=
  headLayer (hiddenLayer (lstmOut (gate x h wih whh bih bhh) c) w1 b1) w2 b2 q

/-- The network over the whole batch: entry `(b, q)` is class `q` of row `b`. -/
def actionsOf (X : (⟨2, ![524288, 1]⟩ : Shape).Idx → EReal) (H C : (⟨3, ![1, 524288, 2]⟩ : Shape).Idx → EReal)
    (Wih : (⟨2, ![8, 1]⟩ : Shape).Idx → EReal) (Whh : (⟨2, ![8, 2]⟩ : Shape).Idx → EReal)
    (bih bhh : (⟨1, ![8]⟩ : Shape).Idx → EReal) (W1 : (⟨2, ![128, 2]⟩ : Shape).Idx → EReal)
    (b1 : (⟨1, ![128]⟩ : Shape).Idx → EReal) (W2 : (⟨2, ![5, 128]⟩ : Shape).Idx → EReal)
    (b2 : (⟨1, ![5]⟩ : Shape).Idx → EReal) : (⟨2, ![524288, 5]⟩ : Shape).Idx → EReal :=
  fun i => rowActions (fun k => X (ix2 (i 0) k)) (fun k => H (ix3 0 (i 0) k)) (fun k => C (ix3 0 (i 0) k))
    (fun g k => Wih (ix2 g k)) (fun g k => Whh (ix2 g k)) (fun g => bih (ix1 g)) (fun g => bhh (ix1 g))
    (fun n j => W1 (ix2 n j)) (fun n => b1 (ix1 n)) (fun q n => W2 (ix2 q n)) (fun q => b2 (ix1 q)) (i 1)

end Cert.RowSpec

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.LibColumnBroadcast.lean ====
/-
  A column spread over many columns, read at an entry.

  A `vector.broadcast` of an `[a, 1]` array to `[a, b]` repeats the one column `b` times: the entry at row `p` and column
  `c` is the column's entry at row `p`, whatever `c`. (The companion of the row form `[1, b] → [a, b]`; it is what a
  reduction that keeps its axis, or a bias turned into a column, is spread back with.)
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.KernelPayload.lean ====
/-
  What the kernel body stores, entry by entry, is one row of the network.

  The body works on blocks laid out features by batch: a block's column `l` is one batch row. Its arithmetic is cut
  here into the four stages of the network — the stacked gates (two small matrix products and two bias columns), the
  LSTM cell with its rectifier, the first layer of the head, the second layer — each read at an entry `(row, l)`.
  A matrix product `W · X` at `(g, l)` is `∑ k, X k l · W g k`; a bias column spread over the lanes reads its entry at
  row `g`; a slice of the gates at rows `o, o+1` reads gate `o + j`; a change of float format is the identity on the
  extended reals. So the stored entry `(q, l)` is class `q` of `RowSpec.rowActions` at column `l` of the input blocks.
-/
import proofs.«115425_j33225867002038_2_alg».proof.Proof.Gen.KernelIdeal.Skeleton
import proofs.«115425_j33225867002038_2_alg».proof.Proof.RowSpec
import proofs.«115425_j33225867002038_2_alg».proof.Proof.LibPlainMatmul
import proofs.«115425_j33225867002038_2_alg».proof.Proof.LibColumnBroadcast
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Facts₀ Cert.RowSpec
open scoped BigOperators

/-! ## The stages, as the body spells them -/

/-- The stacked gates of a block: `Wih · x + Whh · h + bih + bhh`, features by batch. -/
def gatesVec (x : Vec Ideal S1x16384 .f32) (h : Vec Ideal S2x16384 .f32) (wih : Vec Ideal S8x1 .f32)
    (whh : Vec Ideal S8x2 .f32) (bih bhh : Vec Ideal S8x1 .f32) : FVec Ideal S8x16384 .f32 :=
  addf (addf (addf
      (matmul dot_S8x1_S1x16384_S8x16384_1_0_0_1_n_n none (truncf .bf16 wih bitsLt_bf16_f32)
        (truncf .bf16 (shapeCast S1x16384 x shapeCasts_S1x16384_S1x16384) bitsLt_bf16_f32) (constant S8x16384 .f32 0x00000000#32))
      (matmul dot_S8x2_S2x16384_S8x16384_1_0_0_1_n_n none (truncf .bf16 whh bitsLt_bf16_f32)
        (truncf .bf16 (shapeCast S2x16384 h shapeCasts_S2x16384_S2x16384) bitsLt_bf16_f32) (constant S8x16384 .f32 0x00000000#32)))
      (broadcastTo S8x16384 (shapeCast S8x1 bih shapeCasts_S8x1_S8x1) broadcasts_S8x1_S8x16384))
    (broadcastTo S8x16384 (shapeCast S8x1 bhh shapeCasts_S8x1_S8x1) broadcasts_S8x1_S8x16384)

/-- The LSTM cell of a block from its gates and previous cell state, rectified. -/
def lstmVec (gates : FVec Ideal S8x16384 .f32) (c : Vec Ideal S2x16384 .f32) : FVec Ideal S2x16384 .bf16 :=
  truncf .bf16 (maximumf
    (mulf (logistic (extractStridedSlice S2x16384 ![6, 0] gates slices_S8x16384_o6_0_S2x16384))
      (tanh (addf
        (mulf (logistic (extractStridedSlice S2x16384 ![2, 0] gates slices_S8x16384_o2_0_S2x16384))
          (shapeCast S2x16384 c shapeCasts_S2x16384_S2x16384))
        (mulf (logistic (extractStridedSlice S2x16384 ![0, 0] gates slices_S8x16384_o0_0_S2x16384))
          (tanh (extractStridedSlice S2x16384 ![4, 0] gates slices_S8x16384_o4_0_S2x16384))))))
    (broadcast S2x16384 (Scalar.ofBits .f32 0x00000000#32))) bitsLt_bf16_f32

/-- The first layer of the head on a block, rectified. -/
def hiddenVec (o : FVec Ideal S2x16384 .bf16) (w1 : Vec Ideal S128x2 .f32) (b1 : Vec Ideal S128x1 .f32) :
    FVec Ideal S128x16384 .bf16 :=
  truncf .bf16 (maximumf
    (addf (matmul dot_S128x2_S2x16384_S128x16384_1_0_0_1_n_n none (truncf .bf16 w1 bitsLt_bf16_f32) o
        (constant S128x16384 .f32 0x00000000#32))
      (broadcastTo S128x16384 (shapeCast S128x1 b1 shapeCasts_S128x1_S128x1) broadcasts_S128x1_S128x16384))
    (broadcast S128x16384 (Scalar.ofBits .f32 0x00000000#32))) bitsLt_bf16_f32

/-- The second layer of the head on a block. -/
def headVec (hd : FVec Ideal S128x16384 .bf16) (w2 : Vec Ideal S5x128 .f32) (b2 : Vec Ideal S5x1 .f32) :
    FVec Ideal S5x16384 .f32 :=
  addf (matmul dot_S5x128_S128x16384_S5x16384_1_0_0_1_n_n none (truncf .bf16 w2 bitsLt_bf16_f32) hd
      (constant S5x16384 .f32 0x00000000#32))
    (broadcastTo S5x16384 (shapeCast S5x1 b2 shapeCasts_S5x1_S5x1) broadcasts_S5x1_S5x16384)

/-- The body's two payloads are these stages composed. -/
theorem pay2_eq (v0 : Vec Ideal S1x16384 .f32) (v3 v5 : Vec Ideal S2x16384 .f32) (v8 : Vec Ideal S8x1 .f32)
    (v10 : Vec Ideal S8x2 .f32) (v12 v14 : Vec Ideal S8x1 .f32) :
    Gen.k0_pay2 v0 v3 v5 v8 v10 v12 v14 = lstmVec (gatesVec v0 v3 v8 v10 v12 v14) v5 := rfl

theorem pay1_eq (v38 : FVec Ideal S2x16384 .bf16) (v39 : Vec Ideal S128x2 .f32) (v41 : Vec Ideal S128x1 .f32)
    (v49 : Vec Ideal S5x128 .f32) (v51 : Vec Ideal S5x1 .f32) :
    Gen.k0_pay1 v38 v39 v41 v49 v51 = headVec (hiddenVec v38 v39 v41) v49 v51 := rfl

/-! ## Each stage at an entry -/

/-- The gates of column `l` are the row's gates. -/
theorem gatesVec_apply (x : Vec Ideal S1x16384 .f32) (h : Vec Ideal S2x16384 .f32) (wih : Vec Ideal S8x1 .f32)
    (whh : Vec Ideal S8x2 .f32) (bih bhh : Vec Ideal S8x1 .f32) (g : Fin 8) (l : Fin 16384) :
    gatesVec x h wih whh bih bhh (ix2 g l)
      = gate (fun k => x (ix2 k l)) (fun k => h (ix2 k l)) (fun g k => wih (ix2 g k)) (fun g k => whh (ix2 g k))
          (fun g => bih (ix2 g (0 : Fin 1))) (fun g => bhh (ix2 g (0 : Fin 1))) g := by
  unfold gatesVec gate
  simp only [addf_apply]
  rw [show dot_S8x1_S1x16384_S8x16384_1_0_0_1_n_n = DotDims.plain 8 1 16384 from rfl,
    show dot_S8x2_S2x16384_S8x16384_1_0_0_1_n_n = DotDims.plain 8 2 16384 from rfl,
    LibPlainMatmul.matmul_zero_apply_comm, LibPlainMatmul.matmul_zero_apply_comm,
    LibColumnBroadcast.broadcastTo_a1_ab_apply, LibColumnBroadcast.broadcastTo_a1_ab_apply]
  simp only [truncf_apply, shapeCast_self]

/-- A two-row slice of the gates at row offset `o`, read at `(j, l)`, is gate `o + j` of column `l`. -/
theorem slice_rows {o : ℕ} (ho : o + 2 ≤ 8) (y : FVec Ideal S8x16384 .f32) (h : S8x16384.Slices ![o, 0] S2x16384)
    (j : Fin 2) (l : Fin 16384) :
    extractStridedSlice S2x16384 ![o, 0] y h (ix2 j l) = y (ix2 (⟨o + j.val, by omega⟩ : Fin 8) l) :=
  extractStridedSlice_apply ![o, 0] y h (ix2 j l) (ix2 (⟨o + j.val, by omega⟩ : Fin 8) l) (fun a => match a with
    | ⟨0, _⟩ => rfl
    | ⟨1, _⟩ => (Nat.zero_add _).symm)

/-- The cell of column `l` is the row's LSTM step. -/
theorem lstmVec_apply (gates : FVec Ideal S8x16384 .f32) (c : Vec Ideal S2x16384 .f32) (j : Fin 2) (l : Fin 16384) :
    lstmVec gates c (ix2 j l) = lstmOut (fun g => gates (ix2 g l)) (fun j => c (ix2 j l)) j := by
  unfold lstmVec lstmOut relu
  simp only [truncf_apply, maximumf_apply, mulf_apply, addf_apply, broadcast_apply, shapeCast_self, logistic, tanh]
  rw [slice_rows (o := 6) (by omega), slice_rows (o := 2) (by omega), slice_rows (o := 0) (by omega),
    slice_rows (o := 4) (by omega)]
  have e0 : (⟨0 + j.val, by omega⟩ : Fin 8) = gIn j := Fin.ext (Nat.zero_add _)
  rw [e0]
  rfl

/-- The first layer at `(n, l)` is the row's. -/
theorem hiddenVec_apply (o : FVec Ideal S2x16384 .bf16) (w1 : Vec Ideal S128x2 .f32) (b1 : Vec Ideal S128x1 .f32)
    (n : Fin 128) (l : Fin 16384) :
    hiddenVec o w1 b1 (ix2 n l)
      = hiddenLayer (fun j => o (ix2 j l)) (fun n j => w1 (ix2 n j)) (fun n => b1 (ix2 n (0 : Fin 1))) n := by
  unfold hiddenVec hiddenLayer relu
  simp only [truncf_apply, maximumf_apply, addf_apply, broadcast_apply]
  rw [show dot_S128x2_S2x16384_S128x16384_1_0_0_1_n_n = DotDims.plain 128 2 16384 from rfl,
    LibPlainMatmul.matmul_zero_apply_comm, LibColumnBroadcast.broadcastTo_a1_ab_apply]
  simp only [truncf_apply, shapeCast_self]
  rfl

/-- The second layer at `(q, l)` is the row's. -/
theorem headVec_apply (hd : FVec Ideal S128x16384 .bf16) (w2 : Vec Ideal S5x128 .f32) (b2 : Vec Ideal S5x1 .f32)
    (q : Fin 5) (l : Fin 16384) :
    headVec hd w2 b2 (ix2 q l)
      = headLayer (fun n => hd (ix2 n l)) (fun q n => w2 (ix2 q n)) (fun q => b2 (ix2 q (0 : Fin 1))) q := by
  unfold headVec headLayer
  simp only [addf_apply]
  rw [show dot_S5x128_S128x16384_S5x16384_1_0_0_1_n_n = DotDims.plain 5 128 16384 from rfl,
    LibPlainMatmul.matmul_zero_apply_comm, LibColumnBroadcast.broadcastTo_a1_ab_apply]
  simp only [truncf_apply, shapeCast_self]

/-! ## The stored value -/

/-- THE BODY'S RESULT AT AN ENTRY: what is stored at `(q, l)` is class `q` of the network on column `l` of the
    input blocks. -/
theorem stored_apply (x : Vec Ideal S1x16384 .f32) (h c : Vec Ideal S2x16384 .f32) (wih : Vec Ideal S8x1 .f32)
    (whh : Vec Ideal S8x2 .f32) (bih bhh : Vec Ideal S8x1 .f32) (w1 : Vec Ideal S128x2 .f32) (b1 : Vec Ideal S128x1 .f32)
    (w2 : Vec Ideal S5x128 .f32) (b2 : Vec Ideal S5x1 .f32) (q : Fin 5) (l : Fin 16384) :
    Gen.k0_pay1 (Gen.k0_pay2 x h c wih whh bih bhh) w1 b1 w2 b2 (ix2 q l)
      = rowActions (fun k => x (ix2 k l)) (fun k => h (ix2 k l)) (fun k => c (ix2 k l)) (fun g k => wih (ix2 g k))
          (fun g k => whh (ix2 g k)) (fun g => bih (ix2 g (0 : Fin 1))) (fun g => bhh (ix2 g (0 : Fin 1)))
          (fun n j => w1 (ix2 n j)) (fun n => b1 (ix2 n (0 : Fin 1))) (fun q n => w2 (ix2 q n))
          (fun q => b2 (ix2 q (0 : Fin 1))) q := by
  rw [pay1_eq, pay2_eq, headVec_apply]
  unfold rowActions
  refine congrArg (fun hd => headLayer hd _ _ q) (funext fun n => ?_)
  rw [hiddenVec_apply]
  refine congrArg (fun o => hiddenLayer o _ _ n) (funext fun j => ?_)
  rw [lstmVec_apply]
  refine congrArg (fun gt => lstmOut gt _ j) (funext fun g => ?_)
  exact gatesVec_apply x h wih whh bih bhh g l

end Cert.KernelIdeal.Payload

end
-- ==== Proof.LibUnitAxisCasts.lean ====
/-
  Reshapes that only add or drop a unit axis, read at an entry.

  Dropping the leading unit axis of a `[1, a, b]` array gives the `[a, b]` array whose entry `(p, c)` is the
  operand's entry `(0, p, c)`; turning an `[a]` vector into an `[a, 1]` column gives the column whose entry `(p, 0)` is
  the vector's entry `p`. Both hold because a reshape keeps every entry's row-major position.
-/
import Idealize.ShloMosaic.Lib.Pipeline.Value
import Idealize.ShloMosaic.Lib.ValueIdx

namespace Cert.LibUnitAxisCasts

open Idealize.ShloMosaic Idealize.ShloMosaic.ValueIdx

/-- `[1, a, b] → [a, b]`: entry `(p, c)` is the operand's `(0, p, c)`. -/
theorem shapeCast_1ab_ab_apply {α : Type} {a b : ℕ} (v : (⟨3, ![1, a, b]⟩ : Shape).Idx → α)
    (h : (⟨3, ![1, a, b]⟩ : Shape).ShapeCasts ⟨2, ![a, b]⟩) (p : Fin a) (c : Fin b) :
    shapeCast ⟨2, ![a, b]⟩ v h (ix2 p c) = v (ix3 (0 : Fin 1) p c) :=
  shapeCast_apply v h (ix2 p c) (ix3 (0 : Fin 1) p c) (by
    rw [Shape.rowMajor_val_three, Shape.rowMajor_val_two]
    show ((0 : ℕ) * a + p.val) * b + c.val = p.val * b + c.val
    rw [Nat.zero_mul, Nat.zero_add])

/-- `[a] → [a, 1]`: entry `(p, 0)` is the operand's `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.LibUnitAxisCasts
-- ==== Proof.KernelArray.lean ====
/-
  The kernel's result array, and the program's result after the closing transpose.

  The batch is cut into 32 blocks of 16384 rows. Point `t` of the grid reads columns `16384·t … 16384·t + 16383` of the
  three transposed batch arrays and the whole of every weight and bias array, and writes back the same columns of the
  `[5, 524288]` result. The arrays the region finds were laid out by the host lines before it: the input and the two
  states transposed (the states after dropping their unit axis), the four bias vectors turned into columns. Read
  through those lines, column `l` of point `t`'s blocks is row `16384·t + l` of the arguments, so by the body's
  entry-by-entry reading every written block is a block of `fun (q, r) ↦ actionsOf … (r, q)`; the blocks tile the
  array; and the closing transpose turns that array into `actionsOf …` itself.
-/
import proofs.«115425_j33225867002038_2_alg».proof.Proof.Gen.KernelIdeal.Frame
import proofs.«115425_j33225867002038_2_alg».proof.Proof.KernelPayload
import proofs.«115425_j33225867002038_2_alg».proof.Proof.LibUnitAxisCasts
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.RowSpec

variable (m : (ℓ : Loc nD τ sig) → Buf (Elt Ideal) ℓ) (ρ : Dev nD → PrngReg)

/-! ## The arrays the region finds -/

/-- The input, transposed to features by batch. -/
theorem V_x (c : Dev nD) (k : Fin 1) (r : Fin 524288) :
    (V m c main_v0 : S1x524288.Idx → EReal) (ix2 k r) = (m ((c : Thread nD τ).loc main_arg0) : S524288x1.Idx → EReal) (ix2 r k) := by
  have e : (V m c main_v0 : S1x524288.Idx → EReal)
      = transpose S1x524288 [1, 0] (m ((c : Thread nD τ).loc main_arg0)) Gen.transposes_S524288x1_S1x524288_1_0 := by
    show StableHlo.after hostOps0 (fun b => m (c, b)) (Proc.devRef .tc main_v0) = _
    after_results
  rw [e]
  exact transpose_apply [1, 0] _ _ (ix2 k r) (ix2 r k) (fun b => match b with
    | ⟨0, _⟩ => rfl
    | ⟨1, _⟩ => rfl)

/-- A state array, its unit axis dropped and transposed to features by batch. -/
theorem V_h (c : Dev nD) (k : Fin 2) (r : Fin 524288) :
    (V m c main_v2 : S2x524288.Idx → EReal) (ix2 k r)
      = (m ((c : Thread nD τ).loc main_arg1) : S1x524288x2.Idx → EReal) (ix3 (0 : Fin 1) r k) := by
  have e : (V m c main_v2 : S2x524288.Idx → EReal)
      = transpose S2x524288 [1, 0] (shapeCast S524288x2 (m ((c : Thread nD τ).loc main_arg1)) Gen.shapeCasts_S1x524288x2_S524288x2)
          Gen.transposes_S524288x2_S2x524288_1_0 := by
    show StableHlo.after hostOps0 (fun b => m (c, b)) (Proc.devRef .tc main_v2) = _
    after_results
    rfl
  rw [e, transpose_apply [1, 0] _ _ (ix2 k r) (ix2 r k) (fun b => match b with
    | ⟨0, _⟩ => rfl
    | ⟨1, _⟩ => rfl)]
  exact LibUnitAxisCasts.shapeCast_1ab_ab_apply _ _ r k

theorem V_c (c : Dev nD) (k : Fin 2) (r : Fin 524288) :
    (V m c main_v4 : S2x524288.Idx → EReal) (ix2 k r)
      = (m ((c : Thread nD τ).loc main_arg2) : S1x524288x2.Idx → EReal) (ix3 (0 : Fin 1) r k) := by
  have e : (V m c main_v4 : S2x524288.Idx → EReal)
      = transpose S2x524288 [1, 0] (shapeCast S524288x2 (m ((c : Thread nD τ).loc main_arg2)) Gen.shapeCasts_S1x524288x2_S524288x2)
          Gen.transposes_S524288x2_S2x524288_1_0 := by
    show StableHlo.after hostOps0 (fun b => m (c, b)) (Proc.devRef .tc main_v4) = _
    after_results
    rfl
  rw [e, transpose_apply [1, 0] _ _ (ix2 k r) (ix2 r k) (fun b => match b with
    | ⟨0, _⟩ => rfl
    | ⟨1, _⟩ => rfl)]
  exact LibUnitAxisCasts.shapeCast_1ab_ab_apply _ _ r k

/-- The four bias vectors, as columns. -/
theorem V_bih (c : Dev nD) (g : Fin 8) :
    (V m c main_v5 : S8x1.Idx → EReal) (ix2 g (0 : Fin 1)) = (m ((c : Thread nD τ).loc main_arg5) : S8.Idx → EReal) (ix1 g) := by
  have e : (V m c main_v5 : S8x1.Idx → EReal) = shapeCast S8x1 (m ((c : Thread nD τ).loc main_arg5)) Gen.shapeCasts_S8_S8x1 := by
    show StableHlo.after hostOps0 (fun b => m (c, b)) (Proc.devRef .tc main_v5) = _
    after_results
    rfl
  rw [e]
  exact LibUnitAxisCasts.shapeCast_a_a1_apply _ _ g

theorem V_bhh (c : Dev nD) (g : Fin 8) :
    (V m c main_v6 : S8x1.Idx → EReal) (ix2 g (0 : Fin 1)) = (m ((c : Thread nD τ).loc main_arg6) : S8.Idx → EReal) (ix1 g) := by
  have e : (V m c main_v6 : S8x1.Idx → EReal) = shapeCast S8x1 (m ((c : Thread nD τ).loc main_arg6)) Gen.shapeCasts_S8_S8x1 := by
    show StableHlo.after hostOps0 (fun b => m (c, b)) (Proc.devRef .tc main_v6) = _
    after_results
    rfl
  rw [e]
  exact LibUnitAxisCasts.shapeCast_a_a1_apply _ _ g

theorem V_b1 (c : Dev nD) (n : Fin 128) :
    (V m c main_v7 : S128x1.Idx → EReal) (ix2 n (0 : Fin 1)) = (m ((c : Thread nD τ).loc main_arg8) : S128.Idx → EReal) (ix1 n) := by
  have e : (V m c main_v7 : S128x1.Idx → EReal) = shapeCast S128x1 (m ((c : Thread nD τ).loc main_arg8)) Gen.shapeCasts_S128_S128x1 := by
    show StableHlo.after hostOps0 (fun b => m (c, b)) (Proc.devRef .tc main_v7) = _
    after_results
    rfl
  rw [e]
  exact LibUnitAxisCasts.shapeCast_a_a1_apply _ _ n

theorem V_b2 (c : Dev nD) (q : Fin 5) :
    (V m c main_v8 : S5x1.Idx → EReal) (ix2 q (0 : Fin 1)) = (m ((c : Thread nD τ).loc main_arg10) : S5.Idx → EReal) (ix1 q) := by
  have e : (V m c main_v8 : S5x1.Idx → EReal) = shapeCast S5x1 (m ((c : Thread nD τ).loc main_arg10)) Gen.shapeCasts_S5_S5x1 := by
    show StableHlo.after hostOps0 (fun b => m (c, b)) (Proc.devRef .tc main_v8) = _
    after_results
    rfl
  rw [e]
  exact LibUnitAxisCasts.shapeCast_a_a1_apply _ _ q

/-! ## The blocks of a point -/

/-- The printed index maps over the grid: a batch window's block index is `(0, t)`, a weight window's `(0, 0)`. -/
theorem idx_facts : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = t.val) :=
  (by decide +kernel : ∀ t : Fin grid0.N, _)

/-- Column `l` of point `t`'s input block is column `16384·t + l` of the transposed input. -/
theorem blk_x (c : Dev nD) (t : Fin cfg0.N) (k : Fin 1) (l : Fin 16384) (r : Fin 524288) (hr : r.val = t.val * 16384 + l.val) :
    (iblk m c 0 t : Vec Ideal S1x16384 .f32) (ix2 k l) = (V m c main_v0 : S1x524288.Idx → EReal) (ix2 k r) := by
  obtain ⟨⟨e0, e1⟩, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 1 + 1 * k.val = k.val; rw [e0]; omega
  | ⟨1, _⟩ => show win0_0.index t (1 : Fin 2) * 16384 + 1 * l.val = r.val; rw [e1, hr]; omega

/-- The same of the two state blocks. -/
theorem blk_h (c : Dev nD) (t : Fin cfg0.N) (k : Fin 2) (l : Fin 16384) (r : Fin 524288) (hr : r.val = t.val * 16384 + l.val) :
    (iblk m c 1 t : Vec Ideal S2x16384 .f32) (ix2 k l) = (V m c main_v2 : S2x524288.Idx → EReal) (ix2 k r) := by
  obtain ⟨h0, h1, h2, h3, h4, h5, h6, h7, h8, h9, h10, h11⟩ := idx_facts t
  unfold iblk
  rw [View.read_apply]
  show V m c main_v2 _ = V m c main_v2 _
  refine congrArg (V m c main_v2) (funext fun a => Fin.ext ?_)
  match a with
  | ⟨0, _⟩ => show win0_1.index t (0 : Fin 2) * 2 + 1 * k.val = k.val; rw [h1.1]; omega
  | ⟨1, _⟩ => show win0_1.index t (1 : Fin 2) * 16384 + 1 * l.val = r.val; rw [h1.2, hr]; omega

theorem blk_c (c : Dev nD) (t : Fin cfg0.N) (k : Fin 2) (l : Fin 16384) (r : Fin 524288) (hr : r.val = t.val * 16384 + l.val) :
    (iblk m c 2 t : Vec Ideal S2x16384 .f32) (ix2 k l) = (V m c main_v4 : S2x524288.Idx → EReal) (ix2 k r) := by
  obtain ⟨h0, h1, h2, h3, h4, h5, h6, h7, h8, h9, h10, h11⟩ := idx_facts t
  unfold iblk
  rw [View.read_apply]
  show V m c main_v4 _ = V m c main_v4 _
  refine congrArg (V m c main_v4) (funext fun a => Fin.ext ?_)
  match a with
  | ⟨0, _⟩ => show win0_2.index t (0 : Fin 2) * 2 + 1 * k.val = k.val; rw [h2.1]; omega
  | ⟨1, _⟩ => show win0_2.index t (1 : Fin 2) * 16384 + 1 * l.val = r.val; rw [h2.2, hr]; omega

/-- A weight or bias window's block is the whole array, at every point. -/
theorem blk_wih (c : Dev nD) (t : Fin cfg0.N) (p : Fin 8) (k : Fin 1) :
    (iblk m c 3 t : Vec Ideal S8x1 .f32) (ix2 p k) = (V m c main_arg3 : S8x1.Idx → EReal) (ix2 p k) := by
  obtain ⟨h0, h1, h2, h3, h4, h5, h6, h7, h8, h9, h10, h11⟩ := idx_facts t
  unfold iblk
  rw [View.read_apply]
  show V m c main_arg3 _ = V m c main_arg3 _
  refine congrArg (V m c main_arg3) (funext fun a => Fin.ext ?_)
  match a with
  | ⟨0, _⟩ => show win0_3.index t (0 : Fin 2) * 8 + 1 * p.val = p.val; rw [h3.1]; omega
  | ⟨1, _⟩ => show win0_3.index t (1 : Fin 2) * 1 + 1 * k.val = k.val; rw [h3.2]; omega

theorem blk_whh (c : Dev nD) (t : Fin cfg0.N) (p : Fin 8) (k : Fin 2) :
    (iblk m c 4 t : Vec Ideal S8x2 .f32) (ix2 p k) = (V m c main_arg4 : S8x2.Idx → EReal) (ix2 p k) := by
  obtain ⟨h0, h1, h2, h3, h4, h5, h6, h7, h8, h9, h10, h11⟩ := idx_facts t
  unfold iblk
  rw [View.read_apply]
  show V m c main_arg4 _ = V m c main_arg4 _
  refine congrArg (V m c main_arg4) (funext fun a => Fin.ext ?_)
  match a with
  | ⟨0, _⟩ => show win0_4.index t (0 : Fin 2) * 8 + 1 * p.val = p.val; rw [h4.1]; omega
  | ⟨1, _⟩ => show win0_4.index t (1 : Fin 2) * 2 + 1 * k.val = k.val; rw [h4.2]; omega

theorem blk_bih (c : Dev nD) (t : Fin cfg0.N) (p : Fin 8) (k : Fin 1) :
    (iblk m c 5 t : Vec Ideal S8x1 .f32) (ix2 p k) = (V m c main_v5 : S8x1.Idx → EReal) (ix2 p k) := by
  obtain ⟨h0, h1, h2, h3, h4, h5, h6, h7, h8, h9, h10, h11⟩ := idx_facts t
  unfold iblk
  rw [View.read_apply]
  show V m c main_v5 _ = V m c main_v5 _
  refine congrArg (V m c main_v5) (funext fun a => Fin.ext ?_)
  match a with
  | ⟨0, _⟩ => show win0_5.index t (0 : Fin 2) * 8 + 1 * p.val = p.val; rw [h5.1]; omega
  | ⟨1, _⟩ => show win0_5.index t (1 : Fin 2) * 1 + 1 * k.val = k.val; rw [h5.2]; omega

theorem blk_bhh (c : Dev nD) (t : Fin cfg0.N) (p : Fin 8) (k : Fin 1) :
    (iblk m c 6 t : Vec Ideal S8x1 .f32) (ix2 p k) = (V m c main_v6 : S8x1.Idx → EReal) (ix2 p k) := by
  obtain ⟨h0, h1, h2, h3, h4, h5, h6, h7, h8, h9, h10, h11⟩ := idx_facts t
  unfold iblk
  rw [View.read_apply]
  show V m c main_v6 _ = V m c main_v6 _
  refine congrArg (V m c main_v6) (funext fun a => Fin.ext ?_)
  match a with
  | ⟨0, _⟩ => show win0_6.index t (0 : Fin 2) * 8 + 1 * p.val = p.val; rw [h6.1]; omega
  | ⟨1, _⟩ => show win0_6.index t (1 : Fin 2) * 1 + 1 * k.val = k.val; rw [h6.2]; omega

theorem blk_w1 (c : Dev nD) (t : Fin cfg0.N) (p : Fin 128) (k : Fin 2) :
    (iblk m c 7 t : Vec Ideal S128x2 .f32) (ix2 p k) = (V m c main_arg7 : S128x2.Idx → EReal) (ix2 p k) := by
  obtain ⟨h0, h1, h2, h3, h4, h5, h6, h7, h8, h9, h10, h11⟩ := idx_facts t
  unfold iblk
  rw [View.read_apply]
  show V m c main_arg7 _ = V m c main_arg7 _
  refine congrArg (V m c main_arg7) (funext fun a => Fin.ext ?_)
  match a with
  | ⟨0, _⟩ => show win0_7.index t (0 : Fin 2) * 128 + 1 * p.val = p.val; rw [h7.1]; omega
  | ⟨1, _⟩ => show win0_7.index t (1 : Fin 2) * 2 + 1 * k.val = k.val; rw [h7.2]; omega

theorem blk_b1 (c : Dev nD) (t : Fin cfg0.N) (p : Fin 128) (k : Fin 1) :
    (iblk m c 8 t : Vec Ideal S128x1 .f32) (ix2 p k) = (V m c main_v7 : S128x1.Idx → EReal) (ix2 p k) := by
  obtain ⟨h0, h1, h2, h3, h4, h5, h6, h7, h8, h9, h10, h11⟩ := idx_facts t
  unfold iblk
  rw [View.read_apply]
  show V m c main_v7 _ = V m c main_v7 _
  refine congrArg (V m c main_v7) (funext fun a => Fin.ext ?_)
  match a with
  | ⟨0, _⟩ => show win0_8.index t (0 : Fin 2) * 128 + 1 * p.val = p.val; rw [h8.1]; omega
  | ⟨1, _⟩ => show win0_8.index t (1 : Fin 2) * 1 + 1 * k.val = k.val; rw [h8.2]; omega

theorem blk_w2 (c : Dev nD) (t : Fin cfg0.N) (p : Fin 5) (k : Fin 128) :
    (iblk m c 9 t : Vec Ideal S5x128 .f32) (ix2 p k) = (V m c main_arg9 : S5x128.Idx → EReal) (ix2 p k) := by
  obtain ⟨h0, h1, h2, h3, h4, h5, h6, h7, h8, h9, h10, h11⟩ := idx_facts t
  unfold iblk
  rw [View.read_apply]
  show V m c main_arg9 _ = V m c main_arg9 _
  refine congrArg (V m c main_arg9) (funext fun a => Fin.ext ?_)
  match a with
  | ⟨0, _⟩ => show win0_9.index t (0 : Fin 2) * 5 + 1 * p.val = p.val; rw [h9.1]; omega
  | ⟨1, _⟩ => show win0_9.index t (1 : Fin 2) * 128 + 1 * k.val = k.val; rw [h9.2]; omega

theorem blk_b2 (c : Dev nD) (t : Fin cfg0.N) (p : Fin 5) (k : Fin 1) :
    (iblk m c 10 t : Vec Ideal S5x1 .f32) (ix2 p k) = (V m c main_v8 : S5x1.Idx → EReal) (ix2 p k) := by
  obtain ⟨h0, h1, h2, h3, h4, h5, h6, h7, h8, h9, h10, h11⟩ := idx_facts t
  unfold iblk
  rw [View.read_apply]
  show V m c main_v8 _ = V m c main_v8 _
  refine congrArg (V m c main_v8) (funext fun a => Fin.ext ?_)
  match a with
  | ⟨0, _⟩ => show win0_10.index t (0 : Fin 2) * 5 + 1 * p.val = p.val; rw [h10.1]; omega
  | ⟨1, _⟩ => show win0_10.index t (1 : Fin 2) * 1 + 1 * k.val = k.val; rw [h10.2]; omega

/-- COLUMN `l` OF POINT `t`'S BLOCKS IS ROW `16384·t + l` OF THE ARGUMENTS: the network on that column is the network on
    that row. -/
theorem block_rows (c : Dev nD) (t : Fin cfg0.N) (q : Fin 5) (l : Fin 16384) (r : Fin 524288) (hr : r.val = t.val * 16384 + l.val) :
    rowActions (fun k => (iblk m c 0 t : Vec Ideal S1x16384 .f32) (ix2 k l))
        (fun k => (iblk m c 1 t : Vec Ideal S2x16384 .f32) (ix2 k l)) (fun k => (iblk m c 2 t : Vec Ideal S2x16384 .f32) (ix2 k l))
        (fun g k => (iblk m c 3 t : Vec Ideal S8x1 .f32) (ix2 g k)) (fun g k => (iblk m c 4 t : Vec Ideal S8x2 .f32) (ix2 g k))
        (fun g => (iblk m c 5 t : Vec Ideal S8x1 .f32) (ix2 g (0 : Fin 1))) (fun g => (iblk m c 6 t : Vec Ideal S8x1 .f32) (ix2 g (0 : Fin 1)))
        (fun n j => (iblk m c 7 t : Vec Ideal S128x2 .f32) (ix2 n j)) (fun n => (iblk m c 8 t : Vec Ideal S128x1 .f32) (ix2 n (0 : Fin 1)))
        (fun q n => (iblk m c 9 t : Vec Ideal S5x128 .f32) (ix2 q n)) (fun q => (iblk m c 10 t : Vec Ideal S5x1 .f32) (ix2 q (0 : Fin 1))) q
      = actionsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 r q) := by
  have f0 : (fun k => (iblk m c 0 t : Vec Ideal S1x16384 .f32) (ix2 k l)) = fun k => ((m ((c : Thread nD τ).loc main_arg0)) : S524288x1.Idx → EReal) (ix2 r k) :=
    funext fun k => (blk_x m c t k l r hr).trans (V_x m c k r)
  have f1 : (fun k => (iblk m c 1 t : Vec Ideal S2x16384 .f32) (ix2 k l)) = fun k => ((m ((c : Thread nD τ).loc main_arg1)) : S1x524288x2.Idx → EReal) (ix3 (0 : Fin 1) r k) :=
    funext fun k => (blk_h m c t k l r hr).trans (V_h m c k r)
  have f2 : (fun k => (iblk m c 2 t : Vec Ideal S2x16384 .f32) (ix2 k l)) = fun k => ((m ((c : Thread nD τ).loc main_arg2)) : S1x524288x2.Idx → EReal) (ix3 (0 : Fin 1) r k) :=
    funext fun k => (blk_c m c t k l r hr).trans (V_c m c k r)
  have f3 : (fun g k => (iblk m c 3 t : Vec Ideal S8x1 .f32) (ix2 g k)) = fun g k => ((m ((c : Thread nD τ).loc main_arg3)) : S8x1.Idx → EReal) (ix2 g k) :=
    funext fun g => funext fun k => (blk_wih m c t g k).trans (congrFun (V_main_arg3 m c) _)
  have f4 : (fun g k => (iblk m c 4 t : Vec Ideal S8x2 .f32) (ix2 g k)) = fun g k => ((m ((c : Thread nD τ).loc main_arg4)) : S8x2.Idx → EReal) (ix2 g k) :=
    funext fun g => funext fun k => (blk_whh m c t g k).trans (congrFun (V_main_arg4 m c) _)
  have f5 : (fun g => (iblk m c 5 t : Vec Ideal S8x1 .f32) (ix2 g (0 : Fin 1))) = fun g => ((m ((c : Thread nD τ).loc main_arg5)) : S8.Idx → EReal) (ix1 g) :=
    funext fun g => (blk_bih m c t g 0).trans (V_bih m c g)
  have f6 : (fun g => (iblk m c 6 t : Vec Ideal S8x1 .f32) (ix2 g (0 : Fin 1))) = fun g => ((m ((c : Thread nD τ).loc main_arg6)) : S8.Idx → EReal) (ix1 g) :=
    funext fun g => (blk_bhh m c t g 0).trans (V_bhh m c g)
  have f7 : (fun n j => (iblk m c 7 t : Vec Ideal S128x2 .f32) (ix2 n j)) = fun n j => ((m ((c : Thread nD τ).loc main_arg7)) : S128x2.Idx → EReal) (ix2 n j) :=
    funext fun n => funext fun j => (blk_w1 m c t n j).trans (congrFun (V_main_arg7 m c) _)
  have f8 : (fun n => (iblk m c 8 t : Vec Ideal S128x1 .f32) (ix2 n (0 : Fin 1))) = fun n => ((m ((c : Thread nD τ).loc main_arg8)) : S128.Idx → EReal) (ix1 n) :=
    funext fun n => (blk_b1 m c t n 0).trans (V_b1 m c n)
  have f9 : (fun q n => (iblk m c 9 t : Vec Ideal S5x128 .f32) (ix2 q n)) = fun q n => ((m ((c : Thread nD τ).loc main_arg9)) : S5x128.Idx → EReal) (ix2 q n) :=
    funext fun q => funext fun n => (blk_w2 m c t q n).trans (congrFun (V_main_arg9 m c) _)
  have f10 : (fun q => (iblk m c 10 t : Vec Ideal S5x1 .f32) (ix2 q (0 : Fin 1))) = fun q => ((m ((c : Thread nD τ).loc main_arg10)) : S5.Idx → EReal) (ix1 q) :=
    funext fun q => (blk_b2 m c t q 0).trans (V_b2 m c q)
  rw [f0, f1, f2, f3, f4, f5, f6, f7, f8, f9, f10]
  rfl

/-! ## What a point writes back, and the array after the region -/

theorem hz : (![0, 0] : Fin 2 → Nat) = fun _ => 0 := funext fun a => by fin_cases a <;> rfl

/-- The buffer the body leaves, as a function of the entry: its one store covers the buffer, and the stored value at
    `(q, l)` is the network on column `l` of the loaded blocks. -/
theorem out_fun (x : Vec Ideal S1x16384 .f32) (h cs : Vec Ideal S2x16384 .f32) (wih : Vec Ideal S8x1 .f32)
    (whh : Vec Ideal S8x2 .f32) (bih bhh : Vec Ideal S8x1 .f32) (w1 : Vec Ideal S128x2 .f32) (b1 : Vec Ideal S128x1 .f32)
    (w2 : Vec Ideal S5x128 .f32) (b2 : Vec Ideal S5x1 .f32) :
    out0_11 x h cs wih whh bih bhh w1 b1 w2 b2
      = fun y : S5x16384.Idx => rowActions (fun k => x (ix2 k (y 1))) (fun k => h (ix2 k (y 1))) (fun k => cs (ix2 k (y 1)))
        (fun g k => wih (ix2 g k)) (fun g k => whh (ix2 g k)) (fun g => bih (ix2 g (0 : Fin 1))) (fun g => bhh (ix2 g (0 : Fin 1)))
        (fun n j => w1 (ix2 n j)) (fun n => b1 (ix2 n (0 : Fin 1))) (fun q n => w2 (ix2 q n)) (fun q => b2 (ix2 q (0 : Fin 1))) (y 0) := by
  unfold out0_11
  rw [View.canon_unit_zero hz]
  simp only [View.ld_unit_zero (S := S1x16384) hz, View.ld_unit_zero (S := S2x16384) hz, View.ld_unit_zero (S := S8x1) hz,
    View.ld_unit_zero (S := S8x2) hz, View.ld_unit_zero (S := S128x2) hz, View.ld_unit_zero (S := S128x1) hz,
    View.ld_unit_zero (S := S5x128) hz, View.ld_unit_zero (S := S5x1) hz]
  funext y
  obtain ⟨q, l, rfl⟩ : ∃ (q : Fin 5) (l : Fin 16384), y = ix2 q l := ⟨y 0, y 1, eq_ix2 y⟩
  exact Payload.stored_apply x h cs wih whh bih bhh w1 b1 w2 b2 q l

/-- The region's result array, features by batch: entry `(q, r)` is class `q` of row `r`. -/
def resultT (c : Dev nD) : S5x524288.Idx → EReal :=
  fun i => actionsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (i 1) (i 0))

/-- WHAT POINT `t` WRITES BACK is block `t` of `resultT`. -/
theorem flushed_eq (c : Dev nD) (t : Fin cfg0.N) :
    (dats m 0 c).flushed 11 t = ((cfg0.win 11).blk t).view.read (Elt Ideal) (resultT m c) := by
  obtain ⟨h0, h1, h2, h3, h4, h5, h6, h7, h8, h9, h10, h11⟩ := idx_facts t
  show (cfg0.win 11).cut (grid0.coords t) ((dats m 0 c).after 11 t) = _
  rw [after0_11, out_fun (iblk m c 0 t) (iblk m c 1 t) (iblk m c 2 t) (iblk m c 3 t) (iblk m c 4 t) (iblk m c 5 t) (iblk m c 6 t) (iblk m c 7 t) (iblk m c 8 t) (iblk m c 9 t) (iblk m c 10 t)]
  funext y
  have hy0 : (y 0).val < 5 := (y 0).isLt
  have hy1 : (y 1).val < 16384 := (y 1).isLt
  have hr : t.val * 16384 + (y 1).val < 524288 := by
    have ht : t.val < 32 := Nat.lt_of_lt_of_eq t.isLt N_0
    omega
  refine (block_rows m c t ⟨(y 0).val, hy0⟩ ⟨(y 1).val, hy1⟩ ⟨t.val * 16384 + (y 1).val, hr⟩ rfl).trans ?_
  rw [View.read_apply]
  unfold resultT
  refine congrArg (actionsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (funext fun a => Fin.ext ?_)
  match a with
  | ⟨0, _⟩ => show t.val * 16384 + (y 1).val = win0_11.index t (1 : Fin 2) * 16384 + 1 * (y 1).val; rw [h11.2]; omega
  | ⟨1, _⟩ => show (y 0).val = win0_11.index t (0 : Fin 2) * 5 + 1 * (y 0).val; rw [h11.1]; omega

/-- An entry of the result array is in point `t`'s block iff each coordinate is in the block's range on its axis. -/
theorem mem_blk (t : Fin cfg0.N) (i : S5x524288.Idx) :
    i ∈ ((cfg0.win 11).blk t).view.set ↔ ∀ a : Fin 2, win0_11.index t a * S5x16384.size a ≤ (i a).val
      ∧ (i a).val < win0_11.index t a * S5x16384.size a + S5x16384.size a := by
  show i ∈ ((View.whole main_v9).slice (win0_11.rect t)).set ↔ _
  rw [View.set_slice_whole, Rect.mem_set_unit]
  exact Iff.rfl

/-- The blocks tile the array: column `r` lies in the block of point `r / 16384`. -/
theorem cover (i : S5x524288.Idx) :
    ∃ t : Fin cfg0.N, (cfg0.win 11).flush t = true ∧ i ∈ ((cfg0.win 11).blk t).view.set := by
  have hi0 : (i 0).val < 5 := (i 0).isLt
  have hi1 : (i 1).val < 524288 := (i 1).isLt
  have hN : (i 1).val / 16384 < cfg0.N := Nat.lt_of_lt_of_eq (by omega : (i 1).val / 16384 < 32) N_0.symm
  obtain ⟨-, -, -, -, -, -, -, -, -, -, -, e0, e1⟩ := idx_facts ⟨(i 1).val / 16384, hN⟩
  refine ⟨⟨(i 1).val / 16384, hN⟩, flush0_11 _, ?_⟩
  rw [mem_blk]
  intro a
  match a with
  | ⟨0, _⟩ =>
    show win0_11.index ⟨(i 1).val / 16384, hN⟩ (0 : Fin 2) * 5 ≤ (i 0).val
      ∧ (i 0).val < win0_11.index ⟨(i 1).val / 16384, hN⟩ (0 : Fin 2) * 5 + 5
    rw [e0]; omega
  | ⟨1, _⟩ =>
    show win0_11.index ⟨(i 1).val / 16384, hN⟩ (1 : Fin 2) * 16384 ≤ (i 1).val
      ∧ (i 1).val < win0_11.index ⟨(i 1).val / 16384, hN⟩ (1 : Fin 2) * 16384 + 16384
    rw [e1]
    show (i 1).val / 16384 * 16384 ≤ (i 1).val ∧ (i 1).val < (i 1).val / 16384 * 16384 + 16384
    omega

/-- THE RESULT ARRAY AFTER THE REGION is `resultT`. -/
theorem final (c : Dev nD) : (dats m 0 c).arrAt 11 cfg0.N = resultT m c :=
  (dats m 0 c).arrAt_eq_of_cover 11 (resultT m c) (fun t _ => flushed_eq m c t) cover

/-! ## The closing transpose, and the run -/

/-- THE PROGRAM'S RESULT: the region's array transposed back to batch by classes is the network on every row. -/
theorem result_eq (c : Dev nD) :
    Pipeline.afterTail₀ cfgs (dats m) 0 (V0 m) [hostOps1] c main_v10 = actionsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = resultT m c :=
    (Pipeline.withArrays_arr spec0 launch0.win.arr_inj c _ _ 11).trans (final m c)
  rw [e]
  funext i
  obtain ⟨b, q, rfl⟩ : ∃ (b : Fin 524288) (q : Fin 5), i = ix2 b q := ⟨i 0, i 1, eq_ix2 i⟩
  exact transpose_apply [1, 0] (resultT m c) _ (ix2 b q) (ix2 q b) (fun a => match a with
    | ⟨0, _⟩ => rfl
    | ⟨1, _⟩ => rfl)

/-- THE RUN, READ: every weakly fair execution of the program ends with its result at the network on every row of the
    arguments, and the arguments as they were. -/
theorem run : θ_run defs (onTc (τ := τ) (main (F := Ideal))) ⟨m, fun _ => 0, ρ⟩ (fun r => ∀ c : Dev nD,
      r.2.mem ((c.tc : Thread nD τ).loc main_v10) = actionsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c)⟩) (run_main m ρ)

end Cert.KernelIdeal.KValue

end
-- ==== Proof.RefIsSpec.lean ====
/-
  The reference computes the network row by row.

  The reference's operations are read at an entry in the four stages of the network. Row `b` of a product `A · Bᵀ` is
  `∑ k, A b k · B g k`; a bias vector spread over the rows reads its entry at the column; a column slice at offset `o`
  reads gate `o + j`; the leading unit axis of the two state arrays is dropped by a reshape whose entry `(b, k)` is
  entry `(0, b, k)`. The logistic function the reference spells out, `1 / (1 + e^(-v))`, is `Ideal.logistic v` by
  definition once the float pattern of `1.0` is read as the extended real one. So the reference's result at `(b, q)`
  is class `q` of `RowSpec.rowActions` on row `b`: the whole result is `RowSpec.actionsOf`.
-/
import proofs.«115425_j33225867002038_2_alg».proof.Proof.Gen.ReferenceIdeal.Read
import proofs.«115425_j33225867002038_2_alg».proof.Proof.RowSpec
import Idealize.ShloMosaic.Lib.IdealHost

noncomputable section

namespace Cert.ReferenceIdeal.RefValue

open Idealize.ShloMosaic Idealize.ShloMosaic.ValueIdx Cert.ReferenceIdeal Cert.ReferenceIdeal.Read Cert.RowSpec
open scoped BigOperators

/-! ## Where each operation reads its operand -/

section Indices
variable (b : Fin 524288)

theorem state_idx (k : Fin 2) : idx_main_v0 (ix2 b k) = ix3 (0 : Fin 1) b k :=
  funext fun a => Fin.ext (by
    match a with
    | ⟨0, _⟩ => rfl
    | ⟨1, _⟩ => show (b.val * 2 + k.val) / 2 % 524288 = b.val; omega
    | ⟨2, _⟩ => show (b.val * 2 + k.val) % 2 = k.val; omega)

theorem cell_idx (k : Fin 2) : idx_main_v1 (ix2 b k) = ix3 (0 : Fin 1) b k :=
  funext fun a => Fin.ext (by
    match a with
    | ⟨0, _⟩ => rfl
    | ⟨1, _⟩ => show (b.val * 2 + k.val) / 2 % 524288 = b.val; omega
    | ⟨2, _⟩ => show (b.val * 2 + k.val) % 2 = k.val; omega)

theorem x_idx (g : Fin 8) (k : Fin 1) : lidx_main_v3 (ix2 b g) k = ix2 b k :=
  funext fun a => by match a with | ⟨0, _⟩ => rfl | ⟨1, _⟩ => rfl
theorem wih_idx (g : Fin 8) (k : Fin 1) : idx_main_v2 (ridx_main_v3 (ix2 b g) k) = ix2 g k :=
  funext fun a => by match a with | ⟨0, _⟩ => rfl | ⟨1, _⟩ => rfl
theorem h_idx (g : Fin 8) (k : Fin 2) : lidx_main_v5 (ix2 b g) k = ix2 b k :=
  funext fun a => by match a with | ⟨0, _⟩ => rfl | ⟨1, _⟩ => rfl
theorem whh_idx (g : Fin 8) (k : Fin 2) : idx_main_v4 (ridx_main_v5 (ix2 b g) k) = ix2 g k :=
  funext fun a => by match a with | ⟨0, _⟩ => rfl | ⟨1, _⟩ => rfl
theorem bih_idx (g : Fin 8) : idx_main_v7 (idx_main_v8 (ix2 b g)) = ix1 g :=
  funext fun a => by match a with | ⟨0, _⟩ => rfl
theorem bhh_idx (g : Fin 8) : idx_main_v10 (idx_main_v11 (ix2 b g)) = ix1 g :=
  funext fun a => by match a with | ⟨0, _⟩ => rfl

theorem in_idx (j : Fin 2) : idx_main_v13 (ix2 b j) = ix2 b (gIn j) :=
  funext fun a => by match a with | ⟨0, _⟩ => rfl | ⟨1, _⟩ => rfl
theorem forget_idx (j : Fin 2) : idx_main_v14 (ix2 b j) = ix2 b (gForget j) :=
  funext fun a => by match a with | ⟨0, _⟩ => rfl | ⟨1, _⟩ => rfl
theorem cand_idx (j : Fin 2) : idx_main_v15 (ix2 b j) = ix2 b (gCand j) :=
  funext fun a => by match a with | ⟨0, _⟩ => rfl | ⟨1, _⟩ => rfl
theorem out_idx (j : Fin 2) : idx_main_v16 (ix2 b j) = ix2 b (gOut j) :=
  funext fun a => by match a with | ⟨0, _⟩ => rfl | ⟨1, _⟩ => rfl

theorem o_idx (n : Fin 128) (j : Fin 2) : lidx_main_v43 (ix2 b n) j = ix2 b j :=
  funext fun a => by match a with | ⟨0, _⟩ => rfl | ⟨1, _⟩ => rfl
theorem w1_idx (n : Fin 128) (j : Fin 2) : idx_main_v42 (ridx_main_v43 (ix2 b n) j) = ix2 n j :=
  funext fun a => by match a with | ⟨0, _⟩ => rfl | ⟨1, _⟩ => rfl
theorem b1_idx (n : Fin 128) : idx_main_v44 (idx_main_v45 (ix2 b n)) = ix1 n :=
  funext fun a => by match a with | ⟨0, _⟩ => rfl

theorem hd_idx (q : Fin 5) (n : Fin 128) : lidx_main_v49 (ix2 b q) n = ix2 b n :=
  funext fun a => by match a with | ⟨0, _⟩ => rfl | ⟨1, _⟩ => rfl
theorem w2_idx (q : Fin 5) (n : Fin 128) : idx_main_v48 (ridx_main_v49 (ix2 b q) n) = ix2 q n :=
  funext fun a => by match a with | ⟨0, _⟩ => rfl | ⟨1, _⟩ => rfl
theorem b2_idx (q : Fin 5) : idx_main_v50 (idx_main_v51 (ix2 b q)) = ix1 q :=
  funext fun a => by match a with | ⟨0, _⟩ => rfl

end Indices

/-! ## The four stages -/

/-- The stacked gates of row `b`. -/
theorem gates_apply (x0 : FVec Ideal S524288x1 .f32) (x1 x2 : FVec Ideal S1x524288x2 .f32) (x3 : FVec Ideal S8x1 .f32) (x4 : FVec Ideal S8x2 .f32) (x5 x6 : FVec Ideal S8 .f32) (b : Fin 524288) (g : Fin 8) :
    val_main_v12 (F := Ideal) x0 x1 x3 x4 x5 x6 (ix2 b g)
      = gate (fun k => x0 (ix2 b k)) (fun k => x1 (ix3 (0 : Fin 1) b k)) (fun g k => x3 (ix2 g k)) (fun g k => x4 (ix2 g k))
          (fun g => x5 (ix1 g)) (fun g => x6 (ix1 g)) g := by
  simp only [val_main_v12_apply, val_main_v9_apply, val_main_v6_apply, val_main_v3_apply, val_main_v5_apply,
    val_main_v8_apply, val_main_v7_apply, val_main_v11_apply, val_main_v10_apply, val_main_v2_apply,
    val_main_v4_apply, val_main_v0_apply, x_idx, wih_idx, h_idx, whh_idx, bih_idx, bhh_idx, state_idx]
  rfl

/-- The LSTM step of row `b`, from its gates. -/
theorem lstm_apply (x0 : FVec Ideal S524288x1 .f32) (x1 x2 : FVec Ideal S1x524288x2 .f32) (x3 : FVec Ideal S8x1 .f32) (x4 : FVec Ideal S8x2 .f32) (x5 x6 : FVec Ideal S8 .f32) (b : Fin 524288) (j : Fin 2) :
    val_main_v41 (F := Ideal) x0 x1 x2 x3 x4 x5 x6 (ix2 b j)
      = lstmOut (fun g => val_main_v12 (F := Ideal) x0 x1 x3 x4 x5 x6 (ix2 b g)) (fun j => x2 (ix3 (0 : Fin 1) b j)) j := by
  simp only [val_main_v41_apply, val_main_v40_apply, val_main_v39_apply, val_main_v38_apply, val_main_v37_apply,
    val_main_v36_apply, val_main_v35_apply, val_main_v34_apply, val_main_v33_apply, val_main_v32_apply,
    val_main_v31_apply, val_main_v30_apply, val_main_v29_apply, val_main_v28_apply, val_main_v27_apply,
    val_main_v26_apply, val_main_v25_apply, val_main_v24_apply, val_main_v23_apply, val_main_v22_apply,
    val_main_v21_apply, val_main_v20_apply, val_main_v19_apply, val_main_v18_apply, val_main_v17_apply,
    val_main_v16_apply, val_main_v15_apply, val_main_v14_apply, val_main_v13_apply, val_main_v1_apply,
    val_main_cst_apply, val_main_cst_0_apply, val_main_cst_1_apply, val_main_cst_2_apply, val_main_cst_3_apply,
    val_main_cst_4_apply, val_main_call0_v0_apply, val_main_call0_cst_apply,
    in_idx, forget_idx, cand_idx, out_idx, cell_idx, Ideal.ofBits_def, Ideal.ofBits_one_f32]
  rfl

/-- The first layer of the head on row `b`, from its rectified hidden state. -/
theorem hidden_apply (x0 : FVec Ideal S524288x1 .f32) (x1 x2 : FVec Ideal S1x524288x2 .f32) (x3 : FVec Ideal S8x1 .f32) (x4 : FVec Ideal S8x2 .f32) (x5 x6 : FVec Ideal S8 .f32) (x7 : FVec Ideal S128x2 .f32) (x8 : FVec Ideal S128 .f32) (b : Fin 524288) (n : Fin 128) :
    val_main_v47 (F := Ideal) x0 x1 x2 x3 x4 x5 x6 x7 x8 (ix2 b n)
      = hiddenLayer (fun j => val_main_v41 (F := Ideal) x0 x1 x2 x3 x4 x5 x6 (ix2 b j)) (fun n j => x7 (ix2 n j))
          (fun n => x8 (ix1 n)) n := by
  simp only [val_main_v47_apply, val_main_v46_apply, val_main_v43_apply, val_main_v45_apply, val_main_v44_apply,
    val_main_v42_apply, val_main_call1_v0_apply, val_main_call1_cst_apply, o_idx, w1_idx, b1_idx, Ideal.ofBits_def]
  rfl

/-- The second layer of the head on row `b`. -/
theorem head_apply (x0 : FVec Ideal S524288x1 .f32) (x1 x2 : FVec Ideal S1x524288x2 .f32) (x3 : FVec Ideal S8x1 .f32) (x4 : FVec Ideal S8x2 .f32) (x5 x6 : FVec Ideal S8 .f32) (x7 : FVec Ideal S128x2 .f32) (x8 : FVec Ideal S128 .f32) (x9 : FVec Ideal S5x128 .f32) (x10 : FVec Ideal S5 .f32) (b : Fin 524288) (q : Fin 5) :
    val_main_v52 (F := Ideal) x0 x1 x2 x3 x4 x5 x6 x7 x8 x9 x10 (ix2 b q)
      = headLayer (fun n => val_main_v47 (F := Ideal) x0 x1 x2 x3 x4 x5 x6 x7 x8 (ix2 b n)) (fun q n => x9 (ix2 q n))
          (fun q => x10 (ix1 q)) q := by
  simp only [val_main_v52_apply, val_main_v49_apply, val_main_v51_apply, val_main_v50_apply, val_main_v48_apply,
    hd_idx, w2_idx, b2_idx]
  rfl

/-! ## The whole result -/

/-- THE REFERENCE'S RESULT is the network applied to every row of the batch. -/
theorem result_eq (x0 : FVec Ideal S524288x1 .f32) (x1 x2 : FVec Ideal S1x524288x2 .f32) (x3 : FVec Ideal S8x1 .f32) (x4 : FVec Ideal S8x2 .f32) (x5 x6 : FVec Ideal S8 .f32) (x7 : FVec Ideal S128x2 .f32) (x8 : FVec Ideal S128 .f32) (x9 : FVec Ideal S5x128 .f32) (x10 : FVec Ideal S5 .f32) :
    val_main_v52 (F := Ideal) x0 x1 x2 x3 x4 x5 x6 x7 x8 x9 x10 = actionsOf x0 x1 x2 x3 x4 x5 x6 x7 x8 x9 x10 := by
  funext i
  obtain ⟨b, q, rfl⟩ : ∃ (b : Fin 524288) (q : Fin 5), i = ix2 b q := ⟨i 0, i 1, eq_ix2 i⟩
  rw [head_apply]
  show _ = rowActions _ _ _ _ _ _ _ _ _ _ _ q
  unfold rowActions
  refine congrArg (fun hd => headLayer hd _ _ q) (funext fun n => ?_)
  rw [hidden_apply]
  refine congrArg (fun o => hiddenLayer o _ _ n) (funext fun j => ?_)
  rw [lstm_apply]
  refine congrArg (fun gt => lstmOut gt _ j) (funext fun g => ?_)
  exact gates_apply x0 x1 x2 x3 x4 x5 x6 b g

end Cert.ReferenceIdeal.RefValue

end
-- ==== Proof.lean ====
/-
  A single LSTM step followed by a two-layer head, computed by a kernel in a transposed (features by batch) layout over
  32 blocks of 16384 rows, against the same network written row-major with jnp.

  On the extended reals both programs compute, for every batch row, `RowSpec.rowActions`: the kernel's products
  `W · Xᵀ` and the reference's `X · Wᵀ` are the same sums with the factors of each term swapped; a change of float
  format is the identity; the kernel's logistic function and the reference's `1 / (1 + e^(-v))` are one function. Only
  commutativity of the product is used, so the finiteness of the inputs is never needed. The kernel side is
  `KernelArray.lean` (the region's array block by block, then the closing transpose) over `KernelPayload.lean` (the body's
  stored value at an entry); the reference side is `RefIsSpec.lean`; the common specification is `RowSpec.lean`.
  The three frames are the generated ones (the reference's is its generated run with the result dropped); the ideal pass
  rewrote nothing, so `preserves` is trivial.
-/
import proofs.«115425_j33225867002038_2_alg».proof.Defs
import proofs.«115425_j33225867002038_2_alg».proof.Proof.Gen.Kernel
import proofs.«115425_j33225867002038_2_alg».proof.Proof.Gen.Kernel.Skeleton
import proofs.«115425_j33225867002038_2_alg».proof.Proof.Gen.Kernel.Launch
import proofs.«115425_j33225867002038_2_alg».proof.Proof.Gen.Kernel.Points
import proofs.«115425_j33225867002038_2_alg».proof.Proof.Gen.Kernel.Frame
import proofs.«115425_j33225867002038_2_alg».proof.Proof.Gen.KernelIdeal
import proofs.«115425_j33225867002038_2_alg».proof.Proof.Gen.KernelIdeal.Skeleton
import proofs.«115425_j33225867002038_2_alg».proof.Proof.Gen.KernelIdeal.Launch
import proofs.«115425_j33225867002038_2_alg».proof.Proof.Gen.KernelIdeal.Points
import proofs.«115425_j33225867002038_2_alg».proof.Proof.Gen.KernelIdeal.Frame
import proofs.«115425_j33225867002038_2_alg».proof.Proof.Gen.ReferenceIdeal
import proofs.«115425_j33225867002038_2_alg».proof.Proof.Gen.ReferenceIdeal.Run
import proofs.«115425_j33225867002038_2_alg».proof.Proof.Gen.ReferenceIdeal.Read
import proofs.«115425_j33225867002038_2_alg».proof.Proof.Gen.Pre_finite_inputs
import proofs.«115425_j33225867002038_2_alg».proof.Proof.KernelArray
import proofs.«115425_j33225867002038_2_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments as they were. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network applied to every row of the same arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.ReferenceIdeal.RefValue.result_eq]
  obtain ⟨a0, a1, a2, a3, a4, a5, a6, a7, a8, a9, a10⟩ := hagree c
  rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
